-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S4x8x128 : Shape := ⟨3, ![4, 8, 128]⟩
abbrev S1024x1024 : Shape := ⟨2, ![1024, 1024]⟩
abbrev S512x1024 : Shape := ⟨2, ![512, 1024]⟩
abbrev S1x8x128 : Shape := ⟨3, ![1, 8, 128]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x8x128, .f32⟩
  | .hbm, ⟨2, _⟩ => ⟨S_, .f32⟩
  | .hbm, ⟨3, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x8x128, .f32⟩
  | .local _ .vmem, ⟨5, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  broadcasts_S1024x1_S1024x1024 : S1024x1.Broadcasts S1024x1024
  broadcasts_S512x1_S512x1024 : S512x1.Broadcasts S512x1024
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  reduces_S1024x512_S1024 : S1024x512.Reduces [1] S1024
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  reducesTo_S4x8x128_S_d0_1_2 : S4x8x128.ReducesTo [0, 1, 2] S_
  h_S_ : 0 < S_.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x4096, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  slices_S8192x1024_S4096x1024_0_0 : S8192x1024.Slices ![0, 0] S4096x1024
  slices_S8192x1024_S4096x1024_4096_0 : S8192x1024.Slices ![4096, 0] S4096x1024
  reducesTo_S4096x1024_S4096_d1 : S4096x1024.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Kernel.Body.lean ====
/-
  The kernel body at one grid point (band a of 1024 upper rows, tile b of 512 lower rows), as a Hoare triple in each
  of its two cases. At the first tile of a band (b = 0) the output tile is first overwritten with zeros, then read back
  and the tile's share added; at every later tile the output tile is read as the tile before left it and the share
  added. In both cases the two input blocks are only read. What the output tile's buffer ends with is the list of
  pieces the run stores, found while the body is executed symbolically.
-/
import proofs.«131192_j77936476553589_2_alg».proof.Proof.Gen.Kernel.Launch
import proofs.«131192_j77936476553589_2_alg».proof.Proof.Gen.Kernel.Skeleton
import proofs.«131192_j77936476553589_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This point is the first tile of its band": the body's branch condition, from the grid coordinates. -/
abbrev firstTile (i : grid0.Coords) : Prop :=
  (Scalar.cmpi .ne (Scalar.extui (Scalar.cmpi .eq (BitVec.ofNat 32 (i 1).val) 0#32)) 0#32) = 1#1

/-- In point order (band-major, 8 tiles per band) the first tiles are the points divisible by 8. -/
theorem firstTile_iff : ∀ t : Fin cfg0.N, firstTile (grid0.coords t) ↔ t.val % 8 = 0 :=
  (by decide +kernel : ∀ t : Fin grid0.N, firstTile (grid0.coords t) ↔ t.val % 8 = 0)

set_option maxHeartbeats 1000000 in
/-- The body at a first tile: the inputs' buffers at `x0`, `x1`, the output's at anything; it ends with the inputs as
    they were and the output's buffer with the pieces `L` written. -/
noncomputable def runFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__tpc_kernel i arg2 harg2 arg3 harg3 arg4 harg4) K } := by
  refine ⟨?_, fun E K => ?run⟩
  case run =>
    simp only [cc0__tpc_kernel_eq_skeleton]; unfold cc0__tpc_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at a later tile: the output's buffer at `acc`, what the tile before left; otherwise as `runFirst`. -/
noncomputable def runNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__tpc_kernel i arg2 harg2 arg3 harg3 arg4 harg4) K } := by
  refine ⟨?_, fun E K => ?run⟩
  case run =>
    simp only [cc0__tpc_kernel_eq_skeleton]; unfold cc0__tpc_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Tile

end
-- ==== Proof.Kernel.Data.lean ====
/-
  What the pipeline's buffers hold from point to point, and the body's obligation at every point.

  The two input windows read ONE array (the 8192 x 1024 matrix): window 0 its band of 1024 upper rows, window 1 its
  tile of 512 lower rows. The body only reads them, so each window's staging buffer holds its block at every point,
  fetched there or carried over, and the array is held by the two windows at the two halves of the full share.
  The output window's tile is indexed by the band alone: over the 8 tiles of a band it stays in its staging buffer
  and is written back after the last. What it holds after point n is defined by recursion on n: at a first tile the
  body's result over a fresh buffer, at a later tile the body's result over what point n - 1 left.
-/
import proofs.«131192_j77936476553589_2_alg».proof.Proof.Kernel.Body

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first operation). -/
abbrev V (c : Dev nD) (b : Ref sig .tc) : Buf (Elt F) ((c : Thread nD τ).loc b) := m ((c : Thread nD τ).loc b)

/-- Window `w`'s block at point `t`, read off its array as launched. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the output window, through which its contents are stated (the choice does not matter). -/
abbrev VO : View sig .tc .vmem S1x8x128 .f32 := (Memref.whole cc0_stg2_0 : Memref sig .tc .vmem S1x8x128 .f32).view
/-- Each window's current staging memref at point `t`, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)

/-- At a first tile the stored pieces cover the output tile. -/
theorem coverFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) (y : S1x8x128.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S1x8x128.size (by sl_kernel_rfl) y

/-- What a first tile leaves in the output's buffer. -/
def outFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) : Vec F S1x8x128 .f32 :=
  VO.read (Elt F) (VO.writes (Elt F) VO.junk (runFirst c i arg2 harg2 arg3 harg3 arg4 harg4 hc x0 x1).1)

/-- At a later tile the stored pieces cover the output tile. -/
theorem coverNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) (y : S1x8x128.Idx) :
    ∃ pc ∈ (runNext c i arg2 harg2 arg3 harg3 arg4 harg4 hc x0 x1 acc).1, y ∈ pc.1.set :=
  View.cover_of_tiledL (runNext c i arg2 harg2 arg3 harg3 arg4 harg4 hc x0 x1 acc).1 S1x8x128.size (by sl_kernel_rfl) y

/-- What a later tile leaves in the output's buffer, over what it found there. -/
def outNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) : Vec F S1x8x128 .f32 :=
  VO.read (Elt F) (VO.writes (Elt F) VO.junk (runNext c i arg2 harg2 arg3 harg3 arg4 harg4 hc x0 x1 acc).1)

/-! ## The accumulation -/

/-- What the output's staging buffer holds after the body at point `n`. -/
def accAt (c : Dev nD) : (n : ℕ) → n < cfg0.N → Vec F S1x8x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((firstTile_iff ⟨0, hn⟩).mpr (Nat.zero_mod _)) (blk m c 0 ⟨0, hn⟩) (blk m c 1 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((firstTile_iff ⟨n + 1, hn⟩).mpr h0) (blk m c 0 ⟨n + 1, hn⟩) (blk m c 1 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((firstTile_iff ⟨n + 1, hn⟩).mp h)) (blk m c 0 ⟨n + 1, hn⟩) (blk m c 1 ⟨n + 1, hn⟩) (accAt c n (Nat.lt_of_succ_lt hn))

/-- At a first tile. -/
theorem accAt_first (c : Dev nD) (t : Fin cfg0.N) (h0 : t.val % 8 = 0) :
    accAt m c t.val t.isLt = outFirst c (grid0.coords t) (ms0 t) (hs0 t) (ms1 t) (hs1 t) (ms2 t) (hs2 t) ((firstTile_iff t).mpr h0) (blk m c 0 t) (blk m c 1 t) := by
  obtain ⟨n, hn⟩ := t
  cases n with
  | zero => exact rfl
  | succ n => exact (dif_pos h0).trans rfl

/-- At a later tile, over what the point before left. -/
theorem accAt_next (c : Dev nD) (t : Fin cfg0.N) (h0 : ¬ t.val % 8 = 0) :
    accAt m c t.val t.isLt = outNext c (grid0.coords t) (ms0 t) (hs0 t) (ms1 t) (hs1 t) (ms2 t) (hs2 t) (fun h => h0 ((firstTile_iff t).mp h)) (blk m c 0 t) (blk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- On core `c`: the arrays as launched; after the body each input's buffer at its block, the output's at `accAt`;
    the invariant the scoped buffers no window stages (there is none); nothing owed; the shared input array held by
    its two windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = accAt m c t.val t.isLt := by dsimp only [dats]

/-- The band of upper rows is in its buffer at every point, fetched there or carried over. -/
theorem before_0 (c : Dev nD) (t : Fin cfg0.N) (d) : (dats m 0 c).before 0 t d = blk m c 0 t :=
  ((dats m 0 c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The tile of lower rows likewise. -/
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- At a later tile the output's buffer holds what the point before left: it was not written back between. -/
theorem before_2_next (c : Dev nD) (t : Fin cfg0.N) (h0 : ¬ t.val % 8 = 0) (d) :
    (dats m 0 c).before 2 t d = accAt m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 8 = 0
  · rw [accAt_first m c t h0]
    unfold outFirst
    iintro ⟨HΦ, Ho, ⟨%d0, H0⟩, ⟨%d1, H1⟩, ⟨%d2, H2⟩⟩
    iapply ((runFirst c (grid0.coords t) _ _ _ _ _ _ ((firstTile_iff t).mpr h0) (blk m c 0 t) (blk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_next m c t h0]
    simp only [before_2_next m c t h0]
    unfold outNext
    iintro ⟨HΦ, Ho, ⟨%d0, H0⟩, ⟨%d1, H1⟩, ⟨%d2, H2⟩⟩
    iapply ((runNext c (grid0.coords t) _ _ _ _ _ _ (fun h => h0 ((firstTile_iff t).mp h)) (blk m c 0 t) (blk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverNext c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.Kernel.Run.lean ====
/-
  The program's run: @main is the kernel region followed by two host operations (a zero constant and the sum of every
  entry of the region's result).

  Between the two segments the core holds its four unscoped buffers whole — the argument matrix, the region's result,
  the constant, the final sum — at a valuation. At the region's entry the argument matrix, which BOTH input windows
  read, is dealt to them as the two halves of its full share, and the result's buffer goes to the output window whole;
  at the exit the two halves hold what they held at entry (an input array is never written) and are joined again, and
  the result's buffer holds what the write-backs left. The host operations then run over the four buffers.
-/
import proofs.«131192_j77936476553589_2_alg».proof.Proof.Kernel.Data
import Idealize.ShloMosaic.Lib.Pipeline.Regions

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- Core `c`'s buffers at launch, as a valuation. -/
abbrev V₀ (c : Dev nD) : Valuation τ sig (Elt F) := fun b => m ((c : Dev nD), b)

/-- The four unscoped buffers, one by one. -/
theorem held4 (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_v0) ↦{fullShare} W (Proc.devRef .tc main_v0))
          ∗ (((c : Thread nD τ).loc main_cst) ↦{fullShare} W (Proc.devRef .tc main_cst))
          ∗ (((c : Thread nD τ).loc main_v1) ↦{fullShare} W (Proc.devRef .tc main_v1))) := by
  rw [← Pipeline.unscopedBufs_held (Ix := Unit) (Name := ℕ) (U := UR sig nD τ) (Lvl := ℕ) c W]
  unfold unscopedBufs
  exact bigSep_eq_bigSepL_of_eq [main_arg0, main_v0, main_cst, main_v1] (by decide) (by decide) _

/-- The three windows' arrays, one by one, at their shares. -/
theorem arrays3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0)
          ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ]
  rfl

/-- An input array ends as it was found. -/
theorem final_0 (c : Dev nD) : (dats m 0 c).arrAt 0 cfg0.N = V m c main_arg0 :=
  ((dats m 0 c).arrAt_in 0 rfl _).trans (A_eq m c 0)
theorem final_1 (c : Dev nD) : (dats m 0 c).arrAt 1 cfg0.N = V m c main_arg0 :=
  ((dats m 0 c).arrAt_in 1 rfl _).trans (A_eq m c 1)

/-- The valuation when the region is left: the result's buffer at what the write-backs left, the rest as launched. -/
def V₁ (c : Dev nD) : Valuation τ sig (Elt F) :=
  Function.update (V₀ m c) (Proc.devRef .tc main_v0) ((dats m 0 c).arrAt 2 cfg0.N)

theorem V₁_v0 (c : Dev nD) : V₁ m c (Proc.devRef .tc main_v0) = (dats m 0 c).arrAt 2 cfg0.N := by
  unfold V₁; rw [Function.update_self]
theorem V₁_of_ne (c : Dev nD) (b : Ref sig .tc) (hb : b ≠ main_v0) : V₁ m c (Proc.devRef .tc b) = m ((c : Thread nD τ).loc b) := by
  unfold V₁; rw [Function.update_of_ne (StableHlo.devRef_ne_of_ne hb)]

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes no one anything. -/
abbrev R (c : Dev nD) : sProp 𝕄 := iprop(∃ W, owes (c : Thread nD τ) (0 : CellTallies nD τ sig Unit) W)

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(emp)
  Y c := iprop(emp)
  Z c := iprop((((c : Thread nD τ).loc main_cst) ↦{fullShare} m ((c : Thread nD τ).loc main_cst))
    ∗ (((c : Thread nD τ).loc main_v1) ↦{fullShare} m ((c : Thread nD τ).loc main_v1)))
  hentry c := by
    rw [held4, arrays3]
    iintro ⟨⟨⟨H0, Hv0, Hc, Hv1⟩, HO⟩, -, -⟩
    ihave H0 := (pointsTo_share (PosShare.mem_left_op_right fullShare)).1 $$ H0
    icases H0 with ⟨H0l, H0r⟩
    imodintro
    isplitl [H0l H0r Hv0]
    · isplitl [H0l]; · iexact H0l
      isplitl [H0r]; · iexact H0r
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hc]; · iexact Hc
    iexact Hv1
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held4, arrays3, final_0, final_1, V₁_v0, V₁_of_ne m c main_arg0 (by decide), V₁_of_ne m c main_cst (by decide), V₁_of_ne m c main_v1 (by decide)]
    iintro ⟨⟨H0l, H0r, Hv0⟩, HO, -, ⟨Hc, Hv1⟩⟩
    ihave H0 := (pointsTo_share (PosShare.mem_left_op_right fullShare)).2 $$ [H0l H0r]
    · isplitl [H0l] <;> iassumption
    imodintro
    isplitr [HO]
    · isplitl [H0]; · iexact H0
      isplitl [Hv0]; · iexact Hv0
      isplitl [Hc]; · iexact Hc
      iexact Hv1
    · unfold Pipeline.Dat.owesAt Pipeline.owesWithin
      icases HO with ⟨%W, -, HO⟩; iexists W; iexact HO

/-- THE HOST TAIL: the two operations over the four unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

/-- The valuation at the end. -/
abbrev Vend (c : Dev nD) : Valuation τ sig (Elt F) := StableHlo.after hostOps1 (V₁ m c)

/-- What the last segment leaves. -/
abbrev Tₙ (c : Dev nD) : sProp 𝕄 := StableHlo.held (c : Thread nD τ) (Pipeline.ucRefs τ sig) (Vend m c)

/-- The physical post: the result at the host tail's value of what the region left, the argument as launched. -/
def QC : PUnit × MemSt nD τ sig (Elt F) → Prop := fun r =>
  ∀ c : Dev nD, r.2.mem ((c : Thread nD τ).loc main_v1) = Vend m c (Proc.devRef .tc main_v1)
    ∧ r.2.mem ((c : Thread nD τ).loc main_arg0) = Vend m c (Proc.devRef .tc main_arg0)

abbrev segs : List (Pipeline.Seg (pcfgs (F := F)) adm (dats m) () defs₀ 𝒱₀ L lv) := [.region (reg0 m), .host (seg1 m)]

set_option backward.isDefEq.respectTransparency.types false in
/-- Every weakly fair execution of @main terminates, nothing faulting, in a state satisfying `QC`. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v1) = Vend m c (Proc.devRef .tc main_v1)
      ∧ s.mem ((c : Thread nD τ).loc main_arg0) = Vend m c (Proc.devRef .tc main_arg0))
    (hfin := fun c s' => by
      dsimp only [Tₙ]; rw [held4]
      iintro ⟨⟨H0, -, -, H1⟩, HSI⟩
      icombine HSI H1 gives %h1
      icombine HSI H0 gives %h0
      imodintro
      isplitr; · ipureintro; exact ⟨Buf.eq_of_forall_mem_univ h1, Buf.eq_of_forall_mem_univ h0⟩
      iexact HSI)
    (hQ := fun _ h => h)

/-- Neither host operation writes the argument: it ends as launched. -/
theorem Vend_arg0 (c : Dev nD) : Vend m c (Proc.devRef .tc main_arg0) = m ((c : Thread nD τ).loc main_arg0) := by
  have h : Vend m c (Proc.devRef .tc main_arg0) = V₁ m c (Proc.devRef .tc main_arg0) :=
    StableHlo.after_of_forall_not_mem (b := Proc.devRef .tc main_arg0) hostOps1 (V₁ m c) (by
      intro op hop
      simp only [List.mem_cons, List.mem_nil_iff, or_false] at hop
      rcases hop with rfl | rfl <;>
        simp only [StableHlo.binary_writes, StableHlo.nullary_writes, Finset.mem_singleton] <;>
        exact StableHlo.devRef_ne_of_ne (by decide))
  rw [h, V₁_of_ne m c main_arg0 (by decide)]

/-- The result: the host's sum, from the zero word, of every entry of what the region left in its result array. -/
theorem Vend_v1 (c : Dev nD) : Vend m c (Proc.devRef .tc main_v1)
    = Host.reduceAdd (F := F) ((dats m 0 c).arrAt 2 cfg0.N) (constant S_ .f32 0x00000000#32) reducesTo_S4x8x128_S_d0_1_2 h_S_ := by
  have e := V₁_v0 m c
  show StableHlo.after hostOps1 (V₁ m c) (Proc.devRef .tc main_v1) = _
  after_results
  rw [e]

/-- THE FRAME: every weakly fair execution terminates, nothing faulting, the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (Vend_arg0 m c)) (run_main m ρ)

end Cert.Kernel.Tile

end
-- ==== Proof.KernelIdeal.Body.lean ====
/-
  The kernel body at one grid point (band a of 1024 upper rows, tile b of 512 lower rows), as a Hoare triple in each
  of its two cases. At the first tile of a band (b = 0) the output tile is first overwritten with zeros, then read back
  and the tile's share added; at every later tile the output tile is read as the tile before left it and the share
  added. In both cases the two input blocks are only read. What the output tile's buffer ends with is the list of
  pieces the run stores, found while the body is executed symbolically.
-/
import proofs.«131192_j77936476553589_2_alg».proof.Proof.Gen.KernelIdeal.Launch
import proofs.«131192_j77936476553589_2_alg».proof.Proof.Gen.KernelIdeal.Skeleton
import proofs.«131192_j77936476553589_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This point is the first tile of its band": the body's branch condition, from the grid coordinates. -/
abbrev firstTile (i : grid0.Coords) : Prop :=
  (Scalar.cmpi .ne (Scalar.extui (Scalar.cmpi .eq (BitVec.ofNat 32 (i 1).val) 0#32)) 0#32) = 1#1

/-- In point order (band-major, 8 tiles per band) the first tiles are the points divisible by 8. -/
theorem firstTile_iff : ∀ t : Fin cfg0.N, firstTile (grid0.coords t) ↔ t.val % 8 = 0 :=
  (by decide +kernel : ∀ t : Fin grid0.N, firstTile (grid0.coords t) ↔ t.val % 8 = 0)

set_option maxHeartbeats 1000000 in
/-- The body at a first tile: the inputs' buffers at `x0`, `x1`, the output's at anything; it ends with the inputs as
    they were and the output's buffer with the pieces `L` written. -/
noncomputable def runFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__tpc_kernel i arg2 harg2 arg3 harg3 arg4 harg4) K } := by
  refine ⟨?_, fun E K => ?run⟩
  case run =>
    simp only [cc0__tpc_kernel_eq_skeleton]; unfold cc0__tpc_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at a later tile: the output's buffer at `acc`, what the tile before left; otherwise as `runFirst`. -/
noncomputable def runNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__tpc_kernel i arg2 harg2 arg3 harg3 arg4 harg4) K } := by
  refine ⟨?_, fun E K => ?run⟩
  case run =>
    simp only [cc0__tpc_kernel_eq_skeleton]; unfold cc0__tpc_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Tile

end
-- ==== Proof.KernelIdeal.Data.lean ====
/-
  What the pipeline's buffers hold from point to point, and the body's obligation at every point.

  The two input windows read ONE array (the 8192 x 1024 matrix): window 0 its band of 1024 upper rows, window 1 its
  tile of 512 lower rows. The body only reads them, so each window's staging buffer holds its block at every point,
  fetched there or carried over, and the array is held by the two windows at the two halves of the full share.
  The output window's tile is indexed by the band alone: over the 8 tiles of a band it stays in its staging buffer
  and is written back after the last. What it holds after point n is defined by recursion on n: at a first tile the
  body's result over a fresh buffer, at a later tile the body's result over what point n - 1 left.
-/
import proofs.«131192_j77936476553589_2_alg».proof.Proof.KernelIdeal.Body

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first operation). -/
abbrev V (c : Dev nD) (b : Ref sig .tc) : Buf (Elt F) ((c : Thread nD τ).loc b) := m ((c : Thread nD τ).loc b)

/-- Window `w`'s block at point `t`, read off its array as launched. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the output window, through which its contents are stated (the choice does not matter). -/
abbrev VO : View sig .tc .vmem S1x8x128 .f32 := (Memref.whole cc0_stg2_0 : Memref sig .tc .vmem S1x8x128 .f32).view
/-- Each window's current staging memref at point `t`, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)

/-- At a first tile the stored pieces cover the output tile. -/
theorem coverFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) (y : S1x8x128.Idx) :
    ∃ pc ∈ (runFirst c i arg2 harg2 arg3 harg3 arg4 harg4 hc x0 x1).1, y ∈ pc.1.set :=
  View.cover_of_tiledL (runFirst c i arg2 harg2 arg3 harg3 arg4 harg4 hc x0 x1).1 S1x8x128.size (by sl_kernel_rfl) y

/-- What a first tile leaves in the output's buffer. -/
def outFirst (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : firstTile i)
    (x0 : Vec F S1024x1024 .f32) (x1 : Vec F S512x1024 .f32) : Vec F S1x8x128 .f32 :=
  VO.read (Elt F) (VO.writes (Elt F) VO.junk (runFirst c i arg2 harg2 arg3 harg3 arg4 harg4 hc x0 x1).1)

/-- At a later tile the stored pieces cover the output tile. -/
theorem coverNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) (y : S1x8x128.Idx) :
    ∃ pc ∈ (runNext c i arg2 harg2 arg3 harg3 arg4 harg4 hc x0 x1 acc).1, y ∈ pc.1.set :=
  View.cover_of_tiledL (runNext c i arg2 harg2 arg3 harg3 arg4 harg4 hc x0 x1 acc).1 S1x8x128.size (by sl_kernel_rfl) y

/-- What a later tile leaves in the output's buffer, over what it found there. -/
def outNext (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1x8x128 .f32) (harg4 : arg4.IsWhole) (hc : ¬ firstTile i)
    (x0 : Vec F S1024x1024 .f32) (x1 : Vec F S512x1024 .f32) (acc : Vec F S1x8x128 .f32) : Vec F S1x8x128 .f32 :=
  VO.read (Elt F) (VO.writes (Elt F) VO.junk (runNext c i arg2 harg2 arg3 harg3 arg4 harg4 hc x0 x1 acc).1)

/-! ## The accumulation -/

/-- What the output's staging buffer holds after the body at point `n`. -/
def accAt (c : Dev nD) : (n : ℕ) → n < cfg0.N → Vec F S1x8x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((firstTile_iff ⟨0, hn⟩).mpr (Nat.zero_mod _)) (blk m c 0 ⟨0, hn⟩) (blk m c 1 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((firstTile_iff ⟨n + 1, hn⟩).mpr h0) (blk m c 0 ⟨n + 1, hn⟩) (blk m c 1 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((firstTile_iff ⟨n + 1, hn⟩).mp h)) (blk m c 0 ⟨n + 1, hn⟩) (blk m c 1 ⟨n + 1, hn⟩) (accAt c n (Nat.lt_of_succ_lt hn))

/-- At a first tile. -/
theorem accAt_first (c : Dev nD) (t : Fin cfg0.N) (h0 : t.val % 8 = 0) :
    accAt m c t.val t.isLt = outFirst c (grid0.coords t) (ms0 t) (hs0 t) (ms1 t) (hs1 t) (ms2 t) (hs2 t) ((firstTile_iff t).mpr h0) (blk m c 0 t) (blk m c 1 t) := by
  obtain ⟨n, hn⟩ := t
  cases n with
  | zero => exact rfl
  | succ n => exact (dif_pos h0).trans rfl

/-- At a later tile, over what the point before left. -/
theorem accAt_next (c : Dev nD) (t : Fin cfg0.N) (h0 : ¬ t.val % 8 = 0) :
    accAt m c t.val t.isLt = outNext c (grid0.coords t) (ms0 t) (hs0 t) (ms1 t) (hs1 t) (ms2 t) (hs2 t) (fun h => h0 ((firstTile_iff t).mp h)) (blk m c 0 t) (blk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- On core `c`: the arrays as launched; after the body each input's buffer at its block, the output's at `accAt`;
    the invariant the scoped buffers no window stages (there is none); nothing owed; the shared input array held by
    its two windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = accAt m c t.val t.isLt := by dsimp only [dats]

/-- The band of upper rows is in its buffer at every point, fetched there or carried over. -/
theorem before_0 (c : Dev nD) (t : Fin cfg0.N) (d) : (dats m 0 c).before 0 t d = blk m c 0 t :=
  ((dats m 0 c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The tile of lower rows likewise. -/
theorem before_1 (c : Dev nD) (t : Fin cfg0.N) (d) : (dats m 0 c).before 1 t d = blk m c 1 t :=
  ((dats m 0 c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- At a later tile the output's buffer holds what the point before left: it was not written back between. -/
theorem before_2_next (c : Dev nD) (t : Fin cfg0.N) (h0 : ¬ t.val % 8 = 0) (d) :
    (dats m 0 c).before 2 t d = accAt m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 8 = 0
  · rw [accAt_first m c t h0]
    unfold outFirst
    iintro ⟨HΦ, Ho, ⟨%d0, H0⟩, ⟨%d1, H1⟩, ⟨%d2, H2⟩⟩
    iapply ((runFirst c (grid0.coords t) _ _ _ _ _ _ ((firstTile_iff t).mpr h0) (blk m c 0 t) (blk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_next m c t h0]
    simp only [before_2_next m c t h0]
    unfold outNext
    iintro ⟨HΦ, Ho, ⟨%d0, H0⟩, ⟨%d1, H1⟩, ⟨%d2, H2⟩⟩
    iapply ((runNext c (grid0.coords t) _ _ _ _ _ _ (fun h => h0 ((firstTile_iff t).mp h)) (blk m c 0 t) (blk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverNext c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.KernelIdeal.Run.lean ====
/-
  The program's run: @main is the kernel region followed by two host operations (a zero constant and the sum of every
  entry of the region's result).

  Between the two segments the core holds its four unscoped buffers whole — the argument matrix, the region's result,
  the constant, the final sum — at a valuation. At the region's entry the argument matrix, which BOTH input windows
  read, is dealt to them as the two halves of its full share, and the result's buffer goes to the output window whole;
  at the exit the two halves hold what they held at entry (an input array is never written) and are joined again, and
  the result's buffer holds what the write-backs left. The host operations then run over the four buffers.
-/
import proofs.«131192_j77936476553589_2_alg».proof.Proof.KernelIdeal.Data
import Idealize.ShloMosaic.Lib.Pipeline.Regions

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- Core `c`'s buffers at launch, as a valuation. -/
abbrev V₀ (c : Dev nD) : Valuation τ sig (Elt F) := fun b => m ((c : Dev nD), b)

/-- The four unscoped buffers, one by one. -/
theorem held4 (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_v0) ↦{fullShare} W (Proc.devRef .tc main_v0))
          ∗ (((c : Thread nD τ).loc main_cst) ↦{fullShare} W (Proc.devRef .tc main_cst))
          ∗ (((c : Thread nD τ).loc main_v1) ↦{fullShare} W (Proc.devRef .tc main_v1))) := by
  rw [← Pipeline.unscopedBufs_held (Ix := Unit) (Name := ℕ) (U := UR sig nD τ) (Lvl := ℕ) c W]
  unfold unscopedBufs
  exact bigSep_eq_bigSepL_of_eq [main_arg0, main_v0, main_cst, main_v1] (by decide) (by decide) _

/-- The three windows' arrays, one by one, at their shares. -/
theorem arrays3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0)
          ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ]
  rfl

/-- An input array ends as it was found. -/
theorem final_0 (c : Dev nD) : (dats m 0 c).arrAt 0 cfg0.N = V m c main_arg0 :=
  ((dats m 0 c).arrAt_in 0 rfl _).trans (A_eq m c 0)
theorem final_1 (c : Dev nD) : (dats m 0 c).arrAt 1 cfg0.N = V m c main_arg0 :=
  ((dats m 0 c).arrAt_in 1 rfl _).trans (A_eq m c 1)

/-- The valuation when the region is left: the result's buffer at what the write-backs left, the rest as launched. -/
def V₁ (c : Dev nD) : Valuation τ sig (Elt F) :=
  Function.update (V₀ m c) (Proc.devRef .tc main_v0) ((dats m 0 c).arrAt 2 cfg0.N)

theorem V₁_v0 (c : Dev nD) : V₁ m c (Proc.devRef .tc main_v0) = (dats m 0 c).arrAt 2 cfg0.N := by
  unfold V₁; rw [Function.update_self]
theorem V₁_of_ne (c : Dev nD) (b : Ref sig .tc) (hb : b ≠ main_v0) : V₁ m c (Proc.devRef .tc b) = m ((c : Thread nD τ).loc b) := by
  unfold V₁; rw [Function.update_of_ne (StableHlo.devRef_ne_of_ne hb)]

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes no one anything. -/
abbrev R (c : Dev nD) : sProp 𝕄 := iprop(∃ W, owes (c : Thread nD τ) (0 : CellTallies nD τ sig Unit) W)

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (V₁ m c) ∗ R c)
  X c := iprop(emp)
  Y c := iprop(emp)
  Z c := iprop((((c : Thread nD τ).loc main_cst) ↦{fullShare} m ((c : Thread nD τ).loc main_cst))
    ∗ (((c : Thread nD τ).loc main_v1) ↦{fullShare} m ((c : Thread nD τ).loc main_v1)))
  hentry c := by
    rw [held4, arrays3]
    iintro ⟨⟨⟨H0, Hv0, Hc, Hv1⟩, HO⟩, -, -⟩
    ihave H0 := (pointsTo_share (PosShare.mem_left_op_right fullShare)).1 $$ H0
    icases H0 with ⟨H0l, H0r⟩
    imodintro
    isplitl [H0l H0r Hv0]
    · isplitl [H0l]; · iexact H0l
      isplitl [H0r]; · iexact H0r
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hc]; · iexact Hc
    iexact Hv1
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held4, arrays3, final_0, final_1, V₁_v0, V₁_of_ne m c main_arg0 (by decide), V₁_of_ne m c main_cst (by decide), V₁_of_ne m c main_v1 (by decide)]
    iintro ⟨⟨H0l, H0r, Hv0⟩, HO, -, ⟨Hc, Hv1⟩⟩
    ihave H0 := (pointsTo_share (PosShare.mem_left_op_right fullShare)).2 $$ [H0l H0r]
    · isplitl [H0l] <;> iassumption
    imodintro
    isplitr [HO]
    · isplitl [H0]; · iexact H0
      isplitl [Hv0]; · iexact Hv0
      isplitl [Hc]; · iexact Hc
      iexact Hv1
    · unfold Pipeline.Dat.owesAt Pipeline.owesWithin
      icases HO with ⟨%W, -, HO⟩; iexists W; iexact HO

/-- THE HOST TAIL: the two operations over the four unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

/-- The valuation at the end. -/
abbrev Vend (c : Dev nD) : Valuation τ sig (Elt F) := StableHlo.after hostOps1 (V₁ m c)

/-- What the last segment leaves. -/
abbrev Tₙ (c : Dev nD) : sProp 𝕄 := StableHlo.held (c : Thread nD τ) (Pipeline.ucRefs τ sig) (Vend m c)

/-- The physical post: the result at the host tail's value of what the region left, the argument as launched. -/
def QC : PUnit × MemSt nD τ sig (Elt F) → Prop := fun r =>
  ∀ c : Dev nD, r.2.mem ((c : Thread nD τ).loc main_v1) = Vend m c (Proc.devRef .tc main_v1)
    ∧ r.2.mem ((c : Thread nD τ).loc main_arg0) = Vend m c (Proc.devRef .tc main_arg0)

abbrev segs : List (Pipeline.Seg (pcfgs (F := F)) adm (dats m) () defs₀ 𝒱₀ L lv) := [.region (reg0 m), .host (seg1 m)]

set_option backward.isDefEq.respectTransparency.types false in
/-- Every weakly fair execution of @main terminates, nothing faulting, in a state satisfying `QC`. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v1) = Vend m c (Proc.devRef .tc main_v1)
      ∧ s.mem ((c : Thread nD τ).loc main_arg0) = Vend m c (Proc.devRef .tc main_arg0))
    (hfin := fun c s' => by
      dsimp only [Tₙ]; rw [held4]
      iintro ⟨⟨H0, -, -, H1⟩, HSI⟩
      icombine HSI H1 gives %h1
      icombine HSI H0 gives %h0
      imodintro
      isplitr; · ipureintro; exact ⟨Buf.eq_of_forall_mem_univ h1, Buf.eq_of_forall_mem_univ h0⟩
      iexact HSI)
    (hQ := fun _ h => h)

/-- Neither host operation writes the argument: it ends as launched. -/
theorem Vend_arg0 (c : Dev nD) : Vend m c (Proc.devRef .tc main_arg0) = m ((c : Thread nD τ).loc main_arg0) := by
  have h : Vend m c (Proc.devRef .tc main_arg0) = V₁ m c (Proc.devRef .tc main_arg0) :=
    StableHlo.after_of_forall_not_mem (b := Proc.devRef .tc main_arg0) hostOps1 (V₁ m c) (by
      intro op hop
      simp only [List.mem_cons, List.mem_nil_iff, or_false] at hop
      rcases hop with rfl | rfl <;>
        simp only [StableHlo.binary_writes, StableHlo.nullary_writes, Finset.mem_singleton] <;>
        exact StableHlo.devRef_ne_of_ne (by decide))
  rw [h, V₁_of_ne m c main_arg0 (by decide)]

/-- The result: the host's sum, from the zero word, of every entry of what the region left in its result array. -/
theorem Vend_v1 (c : Dev nD) : Vend m c (Proc.devRef .tc main_v1)
    = Host.reduceAdd (F := F) ((dats m 0 c).arrAt 2 cfg0.N) (constant S_ .f32 0x00000000#32) reducesTo_S4x8x128_S_d0_1_2 h_S_ := by
  have e := V₁_v0 m c
  show StableHlo.after hostOps1 (V₁ m c) (Proc.devRef .tc main_v1) = _
  after_results
  rw [e]

/-- THE FRAME: every weakly fair execution terminates, nothing faulting, the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (Vend_arg0 m c)) (run_main m ρ)

end Cert.KernelIdeal.Tile

end
-- ==== Proof.KernelIdeal.Tiles.lean ====
/-
  The run, read as values (at any float instance).

  What a point leaves in the output tile's buffer is the body's last payload `k0_pay1` of the point's row totals
  `k0_pay3` (of the two input blocks) and of what it read from the buffer: the zero tile `k0_pay2` at a first tile of a
  band, what the point before left at a later tile. The input blocks are rows of the argument matrix: at point t
  (band t / 8, tile t % 8) window 0 holds rows 1024 (t / 8) + p and window 1 rows 4096 + 512 (t % 8) + s. The
  output array's tile a is written back once, after the band's eighth point 8 a + 7, so after the run entry
  (a, u, v) of the result array is entry (0, u, v) of what point 8 a + 7 left.
-/
import proofs.«131192_j77936476553589_2_alg».proof.Proof.KernelIdeal.Run
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile leaves the last payload of the row totals and of what it found. -/
theorem outNext_eq (c : Dev nD) (i : grid0.Coords)
    (a2 : Memref sig .tc .vmem S1024x1024 .f32) (h2 : a2.IsWhole) (a3 : Memref sig .tc .vmem S512x1024 .f32) (h3 : a3.IsWhole)
    (a4 : Memref sig .tc .vmem S1x8x128 .f32) (h4 : a4.IsWhole) (hc : ¬ firstTile i)
    (x0 : Vec F S1024x1024 .f32) (x1 : Vec F S512x1024 .f32) (acc : Vec F S1x8x128 .f32) :
    outNext c i a2 h2 a3 h3 a4 h4 hc x0 x1 acc = k0_pay1 (k0_pay3 x0 x1) acc := by
  unfold outNext
  rw [View.read_writes_eq_canon _ _ _ (coverNext c i a2 h2 a3 h3 a4 h4 hc x0 x1 acc)]
  unfold runNext
  dsimp only
  sl_unfold_words
  rw [View.canon_unit_zero hz3]
  simp only [View.readAt_eq_ld, h2.read_unread, h3.read_unread, h4.read_unread, View.ld_unit_zero (S := S1024x1024) hz2,
    View.ld_unit_zero (S := S512x1024) hz2, View.ld_unit_zero (S := S1x8x128) hz3]

/-- A first tile leaves the last payload of the row totals and of the zero tile it has just stored. -/
theorem outFirst_eq (c : Dev nD) (i : grid0.Coords)
    (a2 : Memref sig .tc .vmem S1024x1024 .f32) (h2 : a2.IsWhole) (a3 : Memref sig .tc .vmem S512x1024 .f32) (h3 : a3.IsWhole)
    (a4 : Memref sig .tc .vmem S1x8x128 .f32) (h4 : a4.IsWhole) (hc : firstTile i)
    (x0 : Vec F S1024x1024 .f32) (x1 : Vec F S512x1024 .f32) :
    outFirst c i a2 h2 a3 h3 a4 h4 hc x0 x1 = k0_pay1 (k0_pay3 x0 x1) (k0_pay2 (F := F)) := by
  unfold outFirst
  rw [View.read_writes_eq_canon _ _ _ (coverFirst c i a2 h2 a3 h3 a4 h4 hc x0 x1)]
  unfold runFirst
  dsimp only
  sl_unfold_words
  rw [View.canon_cons_unit_zero (S := S1x8x128) hz3, View.readCov_unit_zero (S := S1x8x128) _ hz3]
  simp only [View.readAt_eq_ld, h2.read_unread, h3.read_unread, View.ld_unit_zero (S := S1024x1024) hz2,
    View.ld_unit_zero (S := S512x1024) hz2, View.ld_unit_zero (S := S1x8x128) hz3]

/-- The accumulation as a function of a natural number (the zero tile past the grid). -/
def accN (c : Dev nD) (n : ℕ) : Vec F S1x8x128 .f32 := if h : n < cfg0.N then accAt m c n h else k0_pay2 (F := F)

theorem accN_of_lt (c : Dev nD) (n : ℕ) (h : n < cfg0.N) : accN m c n = accAt m c n h := dif_pos h

/-- One step of the accumulation at a first tile, -/
theorem accN_first (c : Dev nD) (t : Fin cfg0.N) (h0 : t.val % 8 = 0) :
    accN m c t.val = k0_pay1 (k0_pay3 (blk m c 0 t) (blk m c 1 t)) (k0_pay2 (F := F)) := by
  rw [accN_of_lt m c t.val t.isLt, accAt_first m c t h0, outFirst_eq]

/-- and at a later tile. -/
theorem accN_next (c : Dev nD) (t : Fin cfg0.N) (h0 : ¬ t.val % 8 = 0) :
    accN m c t.val = k0_pay1 (k0_pay3 (blk m c 0 t) (blk m c 1 t)) (accN m c (t.val - 1)) := by
  rw [accN_of_lt m c t.val t.isLt, accAt_next m c t h0, outNext_eq, accN_of_lt m c (t.val - 1) (Nat.lt_of_le_of_lt (Nat.sub_le _ _) t.isLt)]

/-- The printed index maps in closed form, decided over the 32 points. -/
theorem idx_facts : ∀ t : Fin cfg0.N,
    win0_0.index t (0 : Fin 2) = t.val / 8 ∧ win0_0.index t (1 : Fin 2) = 0
    ∧ win0_1.index t (0 : Fin 2) = 8 + t.val % 8 ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N,
    win0_0.index t (0 : Fin 2) = t.val / 8 ∧ win0_0.index t (1 : Fin 2) = 0
    ∧ win0_1.index t (0 : Fin 2) = 8 + t.val % 8 ∧ win0_1.index t (1 : Fin 2) = 0
    ∧ win0_2.index t (0 : Fin 3) = t.val / 8 ∧ win0_2.index t (1 : Fin 3) = 0 ∧ win0_2.index t (2 : Fin 3) = 0)

theorem N32 : cfg0.N = 32 := N_0

/-- Window 0's block at point t: rows 1024 (t / 8) + p of the argument matrix. -/
theorem blk0_apply (c : Dev nD) (t : Fin cfg0.N) (p k : Fin 1024) :
    (blk m c 0 t : Vec F S1024x1024 .f32) (ix2 p k)
      = m ((c : Thread nD τ).loc main_arg0) (ix2 (⟨1024 * (t.val / 8) + p.val, by have := t.isLt; have := N32; have := p.isLt; omega⟩ : Fin 8192) k) := by
  obtain ⟨e0, e1, -⟩ := idx_facts t
  unfold blk
  rw [View.read_apply]
  show V m c main_arg0 _ = m (c.tc.loc main_arg0) _
  unfold V
  congr 1
  funext a
  apply Fin.ext
  match a with
  | ⟨0, _⟩ => show win0_0.index t 0 * 1024 + 1 * p.val = 1024 * (t.val / 8) + p.val; rw [e0]; omega
  | ⟨1, _⟩ => show win0_0.index t 1 * 1024 + 1 * k.val = k.val; rw [e1]; omega

/-- Window 1's block at point t: rows 4096 + 512 (t % 8) + s of the argument matrix. -/
theorem blk1_apply (c : Dev nD) (t : Fin cfg0.N) (s : Fin 512) (k : Fin 1024) :
    (blk m c 1 t : Vec F S512x1024 .f32) (ix2 s k)
      = m ((c : Thread nD τ).loc main_arg0) (ix2 (⟨4096 + (512 * (t.val % 8) + s.val), by have := s.isLt; omega⟩ : Fin 8192) k) := by
  obtain ⟨-, -, e0, e1, -⟩ := idx_facts t
  unfold blk
  rw [View.read_apply]
  show V m c main_arg0 _ = m (c.tc.loc main_arg0) _
  unfold V
  congr 1
  funext a
  apply Fin.ext
  match a with
  | ⟨0, _⟩ => show win0_1.index t 0 * 512 + 1 * s.val = 4096 + (512 * (t.val % 8) + s.val); rw [e0]; omega
  | ⟨1, _⟩ => show win0_1.index t 1 * 1024 + 1 * k.val = k.val; rw [e1]; omega

/-! ## The result array after the run -/

/-- Entry (a, u, v) is entry (0, u, v) of what the band's eighth point left. -/
def resultArr (c : Dev nD) : S4x8x128.Idx → Elt F .f32 :=
  fun i => accN m c (8 * (i 0).val + 7) (ix3 (0 : Fin 1) (i 1) (i 2))

/-- What a band's eighth point writes back is its tile of `resultArr`. -/
theorem flushed_eq (c : Dev nD) (t : Fin cfg0.N) (hf : (cfg0.win 2).flush t = true) :
    (dats m 0 c).flushed 2 t = ((cfg0.win 2).blk t).view.read (Elt F) (resultArr m c) := by
  have h7 : t.val % 8 = 7 := (flush0_2 t).mp hf
  obtain ⟨-, -, -, -, e0, e1, e2⟩ := idx_facts t
  show (cfg0.win 2).cut (grid0.coords t) ((dats m 0 c).after 2 t) = _
  rw [after_2, ← accN_of_lt m c t.val t.isLt]
  funext j
  rw [View.read_apply]
  show accN m c t.val j = resultArr m c (((cfg0.win 2).blk t).view.emb j)
  unfold resultArr
  have hj0 : (j 0).val = 0 := by have : (j 0).val < 1 := (j 0).isLt; omega
  have g0 : ((((cfg0.win 2).blk t).view.emb j) 0).val = t.val / 8 := by
    show win0_2.index t 0 * 1 + 1 * (j 0).val = t.val / 8; rw [e0]; omega
  have g : ix3 (0 : Fin 1) ((((cfg0.win 2).blk t).view.emb j) 1) ((((cfg0.win 2).blk t).view.emb j) 2) = j := by
    funext a
    apply Fin.ext
    match a with
    | ⟨0, _⟩ => show 0 = (j 0).val; omega
    | ⟨1, _⟩ => show win0_2.index t 1 * 8 + 1 * (j 1).val = (j 1).val; rw [e1]; omega
    | ⟨2, _⟩ => show win0_2.index t 2 * 128 + 1 * (j 2).val = (j 2).val; rw [e2]; omega
  have hn : 8 * ((((cfg0.win 2).blk t).view.emb j) 0).val + 7 = t.val := by rw [g0]; omega
  exact (congrArg₂ (fun (n : ℕ) (y : S1x8x128.Idx) => accN m c n y) hn g).symm

/-- An index of the result array is in point t's tile iff each coordinate is in the tile's range. -/
theorem mem_tile (t : Fin cfg0.N) (i : S4x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- So the result array ends at `resultArr`: every entry lies in the tile its band's eighth point writes back. -/
theorem final_2 (c : Dev nD) : (dats m 0 c).arrAt 2 cfg0.N = resultArr m c :=
  (dats m 0 c).arrAt_eq_of_cover 2 (resultArr m c) (flushed_eq m c) fun i => by
    have hi0 : (i 0).val < 4 := (i 0).isLt
    have hi1 : (i 1).val < 8 := (i 1).isLt
    have hi2 : (i 2).val < 128 := (i 2).isLt
    have hN := N32
    refine ⟨⟨8 * (i 0).val + 7, by omega⟩, (flush0_2 _).mpr (by show (8 * (i 0).val + 7) % 8 = 7; omega), ?_⟩
    obtain ⟨-, -, -, -, e0, e1, e2⟩ := idx_facts ⟨8 * (i 0).val + 7, by omega⟩
    rw [mem_tile]
    intro a
    match a with
    | ⟨0, _⟩ => show win0_2.index _ 0 * 1 ≤ (i 0).val ∧ (i 0).val < win0_2.index _ 0 * 1 + 1; rw [e0]; dsimp only; omega
    | ⟨1, _⟩ => show win0_2.index _ 1 * 8 ≤ (i 1).val ∧ (i 1).val < win0_2.index _ 1 * 8 + 8; rw [e1]; omega
    | ⟨2, _⟩ => show win0_2.index _ 2 * 128 ≤ (i 2).val ∧ (i 2).val < win0_2.index _ 2 * 128 + 128; rw [e2]; omega

end Cert.KernelIdeal.Tile

end
-- ==== Proof.PairDist.lean ====
/-
  The quantity both programs compute, as one function of the rows of an 8192 x 1024 matrix `x` of extended reals.

  A row `v` is scaled to `unit v = v / max (sqrt (sum of squares of v)) eps`; the squared distance between two
  scaled rows is taken in the expanded form `|u|^2 + |v|^2 - 2 <u, v>`, clamped below at zero; `total` is the sum of
  that clamped distance over every pair (row i of the first 4096 rows, row j of the last 4096 rows).
  Every literal is kept as the word both programs print (`eps`, `two`, `frac`): the same word on both sides is never
  evaluated. Nothing here mentions a program.
-/
import Idealize.ShloMosaic.PureOps.Ideal
import Idealize.ShloMosaic.PureOps.Ideal.Laws

noncomputable section

open scoped BigOperators

namespace Cert.PairDist

open Idealize.ShloMosaic

/-- The floor under a row's norm, as printed. -/
def eps : EReal := Ideal.ofBits .f32 0x2B8CBCCC#32
/-- The factor of the inner product in the expanded squared distance, as printed. -/
def two : EReal := Ideal.ofBits .f32 0x40000000#32
/-- The share each of the 1024 entries of an output tile receives, as printed (the word of 1/1024). -/
def frac : EReal := Ideal.ofBits .f32 0x3A800000#32

/-- A row's sum of squares. -/
def ssq (v : Fin 1024 → EReal) : EReal := ∑ k, v k * v k
/-- What a row is divided by: its Euclidean norm, floored at `eps`. -/
def scale (v : Fin 1024 → EReal) : EReal := max (Ideal.sqrt (ssq v)) eps
/-- The scaled row. -/
def unit (v : Fin 1024 → EReal) : Fin 1024 → EReal := fun k => Ideal.div (v k) (scale v)
/-- The squared length of the scaled row. -/
def sq (v : Fin 1024 → EReal) : EReal := ssq (unit v)
/-- The inner product of two scaled rows. -/
def dot (u v : Fin 1024 → EReal) : EReal := ∑ k, unit u k * unit v k
/-- The clamped squared distance of two scaled rows, in expanded form. -/
def dist (u v : Fin 1024 → EReal) : EReal := max (sq u + sq v - two * dot u v) 0

/-- It is never negative. -/
theorem dist_nonneg (u v : Fin 1024 → EReal) : 0 ≤ dist u v := le_max_right _ _

/-- Row `i` of the upper half of an 8192-row matrix, `i < 4096`. -/
def lo (i : Fin 4096) : Fin 8192 := ⟨i.val, by omega⟩
/-- Row `4096 + j` of the lower half. -/
def hi (j : Fin 4096) : Fin 8192 := ⟨4096 + j.val, by omega⟩

/-- Upper rows in bands of 1024: row `p` of band `a`. -/
def bandRow (a : Fin 4) (p : Fin 1024) : Fin 4096 := ⟨1024 * a.val + p.val, by have := a.isLt; have := p.isLt; omega⟩
/-- Lower rows in bands of 512: row `s` of band `b`. -/
def tileRow (b : Fin 8) (s : Fin 512) : Fin 4096 := ⟨512 * b.val + s.val, by have := b.isLt; have := s.isLt; omega⟩

/-- The sum of the clamped squared distances over all pairs (upper row, lower row). -/
def total (x : Fin 8192 → Fin 1024 → EReal) : EReal := ∑ i : Fin 4096, ∑ j : Fin 4096, dist (x (lo i)) (x (hi j))

end Cert.PairDist

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.LibRowCol.lean ====
/-
  General layout and reduction reads, at `ix`-indices: an `[a, b, 1]` array cast to `[a, b]`; a `[1, a]` array cast to
  `[1, 1, a]`; the sum over the FIRST axis of an `[a, b]` array at the ideal values; and the two-step total of an
  `[a, b]` array (last axis, then first axis, each result given back its unit axis) as the double sum of its entries.
-/
import Idealize.ShloMosaic.Lib.Pipeline.Value
import Idealize.ShloMosaic.Lib.ValueIdx
import Idealize.ShloMosaic.Lib.ValueLayout
import Idealize.ShloMosaic.PureOps.Ideal.Laws
import proofs.«131192_j77936476553589_2_alg».proof.Proof.LibColumn
import proofs.«131192_j77936476553589_2_alg».proof.Proof.LibKeepdims

noncomputable section

namespace Cert.LibRowCol

open Idealize.ShloMosaic Idealize.ShloMosaic.ValueIdx

variable {α : Type}

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A `[1, a]` array cast to `[1, 1, a]` reads, at `(0, 0, k)`, the operand at `(0, k)`. -/
theorem shapeCast_1a_11a_apply {a : ℕ} (x : (⟨2, ![1, a]⟩ : Shape).Idx → α)
    (h : (⟨2, ![1, a]⟩ : Shape).ShapeCasts ⟨3, ![1, 1, a]⟩) (u v : Fin 1) (k : Fin a) :
    shapeCast ⟨3, ![1, 1, a]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * a + k.val = (u.val * 1 + v.val) * a + k.val
    rw [hu, hv])

theorem lift_first2 {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext ax; apply Fin.ext
  fin_cases ax <;> rfl

/-- Four `[1, 1]` pieces laid side by side into a `[1, 4]` array: entry `(0, k)` is the `k`-th piece's one entry. -/
theorem concat_four_units_apply (p0 p1 p2 p3 : (⟨2, ![1, 1]⟩ : Shape).Idx → α)
    (h : Shape.Concatenates
      ([(⟨⟨2, ![1, 1]⟩, p0⟩ : (s : Shape) × (s.Idx → α)), ⟨⟨2, ![1, 1]⟩, p1⟩, ⟨⟨2, ![1, 1]⟩, p2⟩, ⟨⟨2, ![1, 1]⟩, p3⟩].map (·.1))
      (⟨2, ![1, 4]⟩ : Shape) (1 : Fin 2))
    (k : Fin 4) :
    concatenate (⟨2, ![1, 4]⟩ : Shape) (1 : Fin 2)
        [(⟨⟨2, ![1, 1]⟩, p0⟩ : (s : Shape) × (s.Idx → α)), ⟨⟨2, ![1, 1]⟩, p1⟩, ⟨⟨2, ![1, 1]⟩, p2⟩, ⟨⟨2, ![1, 1]⟩, p3⟩] h
        (ix2 (0 : Fin 1) k)
      = (match k with | ⟨0, _⟩ => p0 | ⟨1, _⟩ => p1 | ⟨2, _⟩ => p2 | ⟨3, _⟩ => p3) (ix2 (0 : Fin 1) (0 : Fin 1)) := by
  have hi : ∀ (j : (⟨2, ![1, 4]⟩ : Shape).Idx) (b : Fin 2), b.cast (rfl : (2 : ℕ) = 2) ≠ (1 : Fin 2) →
      ((ix2 (0 : Fin 1) (0 : Fin 1) : (⟨2, ![1, 1]⟩ : Shape).Idx) b).val = (j (b.cast rfl)).val := by
    intro j b hb
    match b, hb with
    | ⟨0, _⟩, _ => have h0 : (j 0).val < 1 := (j 0).isLt; show 0 = (j 0).val; omega
    | ⟨1, _⟩, hb => exact absurd rfl hb
  match k with
  | ⟨0, _⟩ =>
    refine concatenate_apply_piece (t := ⟨2, ![1, 4]⟩) (1 : Fin 2) _ h _ 0 ?_ ⟨2, ![1, 1]⟩ p0 rfl rfl 0 rfl _ (hi _) rfl
    show 0 < 4; omega
  | ⟨1, _⟩ =>
    refine concatenate_apply_piece (t := ⟨2, ![1, 4]⟩) (1 : Fin 2) _ h _ 1 ?_ ⟨2, ![1, 1]⟩ p1 rfl rfl 1 rfl _ (hi _) rfl
    show 1 < 4; omega
  | ⟨2, _⟩ =>
    refine concatenate_apply_piece (t := ⟨2, ![1, 4]⟩) (1 : Fin 2) _ h _ 2 ?_ ⟨2, ![1, 1]⟩ p2 rfl rfl 2 rfl _ (hi _) rfl
    show 2 < 4; omega
  | ⟨3, _⟩ =>
    refine concatenate_apply_piece (t := ⟨2, ![1, 4]⟩) (1 : Fin 2) _ h _ 3 ?_ ⟨2, ![1, 1]⟩ p3 rfl rfl 3 rfl _ (hi _) rfl
    show 3 < 4; omega

variable {φ : FTy}

/-- The sum over the first axis of an `[a, b]` array, at `q`: the sum over `p` of the entries `(p, q)`. -/
theorem sum_first2_apply {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_first2 h q p))

/-- The total of an `[a, b]` array taken in two steps — the sum along the last axis, kept as a column `[a, 1]`; then
    the sum of that column, kept as `[1, 1]` — is the double sum of the entries. -/
theorem total_two_steps {a b : ℕ} (w : FVec Ideal ⟨2, ![a, b]⟩ φ) (acc : BitVec φ.bits)
    (h1 : (⟨2, ![a, b]⟩ : Shape).Reduces [1] (⟨1, ![a]⟩ : Shape)) (c1 : (⟨1, ![a]⟩ : Shape).ShapeCasts ⟨2, ![a, 1]⟩)
    (h0 : (⟨2, ![a, 1]⟩ : Shape).Reduces [0] (⟨1, ![1]⟩ : Shape)) (c0 : (⟨1, ![1]⟩ : Shape).ShapeCasts ⟨2, ![1, 1]⟩)
    (hφ : FKind.Formats φ) (hacc : acc = FKind.add.neutral φ hφ) (u v : Fin 1) :
    shapeCast ⟨2, ![1, 1]⟩
        (multiReduction .add [0] ⟨1, ![1]⟩
          (shapeCast ⟨2, ![a, 1]⟩ (multiReduction .add [1] ⟨1, ![a]⟩ w acc h1 hφ hacc) c1) acc h0 hφ hacc) c0 (ix2 u v)
      = ∑ p : Fin a, ∑ q : Fin b, w (ix2 p q) := by
  rw [Cert.LibColumn.shapeCast_a_a1_apply, sum_first2_apply]
  refine Finset.sum_congr rfl fun p _ => ?_
  rw [Cert.LibColumn.shapeCast_a_a1_apply, Cert.LibKeepdims.sum_last2_apply]

end Cert.LibRowCol

end
-- ==== Proof.Payloads.lean ====
/-
  The three pure values the kernel body stores or carries, read at an index at the ideal values: the zero tile, the
  tile with a block's share added to every entry, and the column of row totals of the clamped squared distances between
  the scaled rows of a left block and the scaled rows of a right block.
-/
import proofs.«131192_j77936476553589_2_alg».proof.Proof.Gen.KernelIdeal.Skeleton
import proofs.«131192_j77936476553589_2_alg».proof.Proof.PairDist
import proofs.«131192_j77936476553589_2_alg».proof.Proof.LibColumn
import proofs.«131192_j77936476553589_2_alg».proof.Proof.LibKeepdims
import proofs.«131192_j77936476553589_2_alg».proof.Proof.LibDotNT
import proofs.«131192_j77936476553589_2_alg».proof.Proof.LibRowCol
import Idealize.ShloMosaic.Lib.ValueLayout

noncomputable section

open scoped BigOperators

namespace Cert.Payloads

open Idealize.ShloMosaic Idealize.ShloMosaic.ValueIdx Cert.KernelIdeal Cert.KernelIdeal.Gen

variable {α : Type}

/-! ## Layout -/

/-- A one-entry `[1, 1, 1]` array broadcast to `[a, b, c]` reads its one entry everywhere. -/
theorem broadcastTo_111_abc_apply {a b c : ℕ} (v : (⟨3, ![1, 1, 1]⟩ : Shape).Idx → α)
    (h : (⟨3, ![1, 1, 1]⟩ : Shape).Broadcasts ⟨3, ![a, b, c]⟩) (p : Fin a) (q : Fin b) (r : Fin c) :
    broadcastTo ⟨3, ![a, b, c]⟩ v h (ix3 p q r) = v (ix3 (0 : Fin 1) (0 : Fin 1) (0 : Fin 1)) := by
  refine broadcastTo_apply v h (ix3 p q r) (ix3 (0 : Fin 1) (0 : Fin 1) (0 : Fin 1)) fun ax => ?_
  match ax with
  | ⟨0, _⟩ => rfl
  | ⟨1, _⟩ => rfl
  | ⟨2, _⟩ => rfl

/-! ## The zero tile and the tile with a share added -/

/-- The zero tile reads `0` everywhere. -/
theorem zeros_apply (i : S1x8x128.Idx) : k0_pay2 (F := Ideal) i = 0 := by
  unfold k0_pay2
  exact Ideal.ofBits_zero_f32

/-- The updated tile: every entry of the tile read before, plus the column's total times the share. -/
theorem fill_apply (v40 : FVec Ideal S1024x1 .f32) (acc : Vec Ideal S1x8x128 .f32) (i : S1x8x128.Idx) :
    k0_pay1 (F := Ideal) v40 acc i = acc i + (∑ p : Fin 1024, v40 (ix2 p 0)) * Cert.PairDist.frac := by
  obtain ⟨a, b, c, rfl⟩ : ∃ (a : Fin 1) (b : Fin 8) (c : Fin 128), i = ix3 a b c := ⟨i 0, i 1, i 2, eq_ix3 i⟩
  unfold k0_pay1
  rw [addf_apply, shapeCast_self, broadcastTo_111_abc_apply, Cert.LibRowCol.shapeCast_1a_11a_apply, mulf_apply,
    Cert.LibColumn.shapeCast_a_a1_apply]
  show _ + _ * Cert.PairDist.frac = _
  exact congrArg (fun t => acc (ix3 a b c) + t * Cert.PairDist.frac) (Cert.LibRowCol.sum_first2_apply _ _ _ _ _ 0)

/-! ## A block's rows, scaled -/

section Rows

variable {a : ℕ} (x : FVec Ideal ⟨2, ![a, 1024]⟩ .f32)
  (hr : (⟨2, ![a, 1024]⟩ : Shape).Reduces [1] (⟨1, ![a]⟩ : Shape)) (hφ : FKind.Formats .f32)
  (hacc : (0x00000000#32 : BitVec 32) = 0x00000000#32)
  (hc : (⟨1, ![a]⟩ : Shape).ShapeCasts ⟨2, ![a, 1]⟩)
  (hb : (⟨2, ![a, 1]⟩ : Shape).Broadcasts ⟨2, ![a, 1024]⟩)

/-- The column of the rows' sums of squares, at row `p`: the sum of squares of row `p`. -/
theorem ssqCol_apply (p : Fin a) (u : Fin 1) :
    shapeCast ⟨2, ![a, 1]⟩ (multiReduction (F := Ideal) .add [1] ⟨1, ![a]⟩ (mulf x x) 0x00000000#32 hr hφ hacc) hc (ix2 p u)
      = Cert.PairDist.ssq fun k => x (ix2 p k) :=
  (Cert.LibColumn.shapeCast_a_a1_apply _ hc p u).trans (Cert.LibKeepdims.sum_last2_apply (mulf x x) _ hr hφ hacc p)

/-- The block with every row divided by the row's norm floored at `eps`, as the operations compute it. -/
abbrev scaled : FVec Ideal ⟨2, ![a, 1024]⟩ .f32 :=
  divf x (broadcastTo ⟨2, ![a, 1024]⟩
    (maximumf
      (sqrt (shapeCast ⟨2, ![a, 1]⟩ (multiReduction (F := Ideal) .add [1] ⟨1, ![a]⟩ (mulf x x) 0x00000000#32 hr hφ hacc) hc))
      (broadcast ⟨2, ![a, 1]⟩ (Scalar.ofBits .f32 0x2B8CBCCC#32))) hb)

/-- Its entry `(p, k)` is entry `k` of the scaled row `p`. -/
theorem scaled_apply (p : Fin a) (k : Fin 1024) :
    scaled x hr hφ hacc hc hb (ix2 p k) = Cert.PairDist.unit (fun k => x (ix2 p k)) k := by
  unfold scaled
  rw [divf_apply, Cert.LibColumn.broadcastTo_a1_ab_apply, maximumf_apply, broadcast_apply]
  show Ideal.div _ (max (Ideal.sqrt (shapeCast _ _ hc (ix2 p 0))) _) = _
  rw [ssqCol_apply]
  rfl

/-- The column of the scaled rows' squared lengths, at row `p`. -/
theorem sqCol_apply (p : Fin a) (u : Fin 1) :
    shapeCast ⟨2, ![a, 1]⟩
        (multiReduction (F := Ideal) .add [1] ⟨1, ![a]⟩
          (mulf (scaled x hr hφ hacc hc hb) (scaled x hr hφ hacc hc hb)) 0x00000000#32 hr hφ hacc) hc (ix2 p u)
      = Cert.PairDist.sq fun k => x (ix2 p k) :=
  (ssqCol_apply _ hr hφ hacc hc p u).trans
    (congrArg Cert.PairDist.ssq (funext fun k => scaled_apply x hr hφ hacc hc hb p k))

end Rows

/-- The inner product of a scaled row of one block with a scaled row of another: the narrowing of the entries on the way
    into the product is the identity at the ideal values. -/
theorem dot_apply {a b : ℕ} (x : FVec Ideal ⟨2, ![a, 1024]⟩ .f32) (y : FVec Ideal ⟨2, ![b, 1024]⟩ .f32)
    (hrx : (⟨2, ![a, 1024]⟩ : Shape).Reduces [1] (⟨1, ![a]⟩ : Shape)) (hry : (⟨2, ![b, 1024]⟩ : Shape).Reduces [1] (⟨1, ![b]⟩ : Shape))
    (hφ : FKind.Formats .f32) (hacc : (0x00000000#32 : BitVec 32) = 0x00000000#32)
    (hcx : (⟨1, ![a]⟩ : Shape).ShapeCasts ⟨2, ![a, 1]⟩) (hcy : (⟨1, ![b]⟩ : Shape).ShapeCasts ⟨2, ![b, 1]⟩)
    (hbx : (⟨2, ![a, 1]⟩ : Shape).Broadcasts ⟨2, ![a, 1024]⟩) (hby : (⟨2, ![b, 1]⟩ : Shape).Broadcasts ⟨2, ![b, 1024]⟩)
    (ht : FTy.bits .bf16 < FTy.bits .f32) (p : Fin a) (s : Fin b) :
    ∑ k : Fin 1024, truncf .bf16 (scaled x hrx hφ hacc hcx hbx) ht (ix2 p k) * truncf .bf16 (scaled y hry hφ hacc hcy hby) ht (ix2 s k)
      = Cert.PairDist.dot (fun k => x (ix2 p k)) (fun k => y (ix2 s k)) := by
  refine Finset.sum_congr rfl fun k _ => ?_
  show scaled x hrx hφ hacc hcx hbx (ix2 p k) * scaled y hry hφ hacc hcy hby (ix2 s k) = _
  rw [scaled_apply, scaled_apply]

/-! ## The row totals of the clamped squared distances -/

/-- Row `p` of the column the kernel carries: the sum, over the rows `s` of the right block, of the clamped squared
    distance between the scaled row `p` of the left block and the scaled row `s` of the right block. -/
theorem rowTotals_apply (l : Vec Ideal S1024x1024 .f32) (r : Vec Ideal S512x1024 .f32) (p : Fin 1024) :
    k0_pay3 (F := Ideal) l r (ix2 p 0)
      = ∑ s : Fin 512, Cert.PairDist.dist (fun k => l (ix2 p k)) (fun k => r (ix2 s k)) := by
  unfold k0_pay3
  refine (Cert.LibColumn.shapeCast_a_a1_apply _ _ p 0).trans ?_
  refine (Cert.LibKeepdims.sum_last2_apply _ _ _ _ _ p).trans ?_
  refine Finset.sum_congr rfl fun s _ => ?_
  rw [maximumf_apply, subf_apply, addf_apply, mulf_apply, broadcast_apply, broadcast_apply,
    Cert.LibColumn.broadcastTo_a1_ab_apply, broadcastTo_1b_ab_apply, transpose_ix2_apply,
    Cert.LibDotNT.matmulNT_apply _ rfl rfl rfl rfl rfl rfl, sqCol_apply, sqCol_apply, dot_apply]
  show max _ (Ideal.ofBits .f32 0x00000000#32) = _
  rw [Ideal.ofBits_zero_f32]
  rfl

end Cert.Payloads

end
-- ==== Proof.LibNonnegSums.lean ====
/-
  Sums on the extended reals, over abstract finite index types: what joins a total in which every
  term carries its own factor to a total multiplied once.

  On the extended reals multiplication does not distribute over addition in general (an infinite
  factor against terms of both signs), but it does over NONNEGATIVE terms, whatever the factor:
  `(a + b) * c = a * c + b * c` for `0 ≤ a`, `0 ≤ b` and any `c`. A product `x * x` is nonnegative
  for every extended real `x`, infinite ones included, so a total of squares, or of squares and
  zeros, may have a common factor moved across it with no finiteness assumption at all.
-/
import Mathlib.Data.EReal.Operations
import Mathlib.Algebra.BigOperators.Fin
import Mathlib.Algebra.BigOperators.Ring.Finset
import Mathlib.Algebra.Order.BigOperators.Group.Finset
import Mathlib.Logic.Equiv.Fin.Basic

namespace Cert.NonnegSums

open Finset

/-- A square is nonnegative on the extended reals: both factors lie on the same side of zero. -/
theorem zero_le_mul_self (x : EReal) : 0 ≤ x * x :=
  EReal.mul_nonneg_iff.2 ((le_total 0 x).imp (fun h => ⟨h, h⟩) (fun h => ⟨h, h⟩))

/-- A common right factor moves across a finite sum of nonnegative terms. -/
theorem sum_mul_of_nonneg {ι : Type*} (s : Finset ι) (f : ι → EReal) (c : EReal)
    (hf : ∀ i ∈ s, 0 ≤ f i) : (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- A total of `A i + B i * c`, the factor inside every term, is the total
    of the `A i` plus `c` times the total of the `B i`, when every `B i` is nonnegative. -/
theorem sum_add_mul_eq {ι : Type*} [Fintype ι] (A B : ι → EReal) (c : EReal) (hB : ∀ i, 0 ≤ B i) :
    ∑ i, (A i + B i * c) = (∑ i, A i) + c * ∑ i, B i := by
  rw [Finset.sum_add_distrib, EReal.mul_comm c, sum_mul_of_nonneg _ _ _ fun i _ => hB i]

/-- A range of `a * b` indices summed tile by tile, `a` tiles of `b` consecutive indices, is the
    sum over the whole range (any commutative monoid: only the order of the terms changes). -/
theorem sum_tiles {M : Type*} [AddCommMonoid M] (a b : ℕ) (f : Fin (a * b) → M) :
    ∑ j : Fin a, ∑ r : Fin b, f (finProdFinEquiv (j, r)) = ∑ n : Fin (a * b), f n := by
  rw [← Fintype.sum_prod_type', Equiv.sum_comp finProdFinEquiv f]

/-- The index of place `r` of tile `j` is `r + b * j`. -/
theorem tile_index_val (a b : ℕ) (j : Fin a) (r : Fin b) :
    (finProdFinEquiv (j, r) : Fin (a * b)).val = r.val + b * j.val := rfl

end Cert.NonnegSums
-- ==== Proof.Regroup.lean ====
/-
  A regrouping law for a nonnegative double sum on the extended reals.

  A square index range of side 4096 is cut into 4 bands of 1024 upper rows and 8 bands of 512 lower rows. For each
  upper band, the total over each of the 8 blocks (upper band, lower band) is multiplied by 1/1024 and that product is
  added into each of 8 x 128 = 1024 places; summing every place gives back, for each upper band, the total over its 8
  blocks, and summing over the 4 upper bands gives the total over the whole square.

  On the extended reals a common factor moves across a sum of NONNEGATIVE terms whatever the factor, and 1024 copies of
  y / 1024 add up to y for every nonnegative y, the infinite one included, so no finiteness is assumed anywhere.
-/
import proofs.«131192_j77936476553589_2_alg».proof.Proof.PairDist
import proofs.«131192_j77936476553589_2_alg».proof.Proof.LibNonnegSums

open scoped BigOperators

namespace Cert.Regroup

open Idealize.ShloMosaic

/-- The word 0x3A800000 has sign bit 0, exponent field 117 and a zero fraction field: it denotes
    2 ^ 23 * 2 ^ (117 - 127 - 23) = 2 ^ (-10) = 1 / 1024. -/
theorem frac_eq : Cert.PairDist.frac = (((1 : ℝ) / 1024 : ℝ) : EReal) := by
  unfold Cert.PairDist.frac
  simp [Ideal.ofBits, Ideal.ieee, -EReal.coe_mul]; norm_num

/-- n copies of an extended real add up to n times it. -/
theorem sum_copies (n : ℕ) (z : EReal) : ∑ _i : Fin n, z = (n : EReal) * z := by
  rw [Finset.sum_const, Finset.card_univ, Fintype.card_fin, EReal.nsmul_eq_mul]

/-- 8 x 128 = 1024 copies of y / 1024 add up to y, for every nonnegative y: a real y by arithmetic in the reals, and
    the infinite y because a positive multiple of the infinite element is the infinite element. -/
theorem copies_frac (y : EReal) (hy : 0 ≤ y) :
    ∑ _u : Fin 8, ∑ _v : Fin 128, y * Cert.PairDist.frac = y := by
  rw [frac_eq]
  simp only [sum_copies]
  induction y using EReal.rec with
  | bot => exact absurd hy (by simp)
  | top =>
    rw [EReal.top_mul_coe_of_pos (by norm_num), EReal.mul_top_of_pos (by norm_num), EReal.mul_top_of_pos (by norm_num)]
  | coe r =>
    rw [← EReal.coe_coe_eq_natCast, ← EReal.coe_coe_eq_natCast, ← EReal.coe_mul, ← EReal.coe_mul, ← EReal.coe_mul]
    congr 1
    push_cast
    ring

/-- Rows listed band by band, n bands of b consecutive rows, are all the n * b rows (any commutative monoid: only the
    order of the terms changes). -/
theorem sum_blocks {M : Type*} [AddCommMonoid M] (n b : ℕ) (row : Fin n → Fin b → Fin (n * b))
    (hrow : ∀ i r, (row i r).val = b * i.val + r.val) (f : Fin (n * b) → M) :
    ∑ i : Fin n, ∑ r : Fin b, f (row i r) = ∑ k : Fin (n * b), f k := by
  rw [← Cert.NonnegSums.sum_tiles n b f]
  refine Finset.sum_congr rfl fun i _ => Finset.sum_congr rfl fun r _ => congrArg f (Fin.ext ?_)
  rw [hrow, Cert.NonnegSums.tile_index_val, Nat.add_comm]

/-- The 4 bands of 1024 upper rows are the 4096 upper rows. -/
theorem sum_bandRow {M : Type*} [AddCommMonoid M] (f : Fin 4096 → M) :
    ∑ a : Fin 4, ∑ p : Fin 1024, f (Cert.PairDist.bandRow a p) = ∑ i : Fin 4096, f i :=
  sum_blocks 4 1024 Cert.PairDist.bandRow (fun _ _ => rfl) f

/-- The 8 bands of 512 lower rows are the 4096 lower rows. -/
theorem sum_tileRow {M : Type*} [AddCommMonoid M] (f : Fin 4096 → M) :
    ∑ b : Fin 8, ∑ s : Fin 512, f (Cert.PairDist.tileRow b s) = ∑ j : Fin 4096, f j :=
  sum_blocks 8 512 Cert.PairDist.tileRow (fun _ _ => rfl) f

/-- **The regrouping law.** Adding, for each upper band a, into each of 8 x 128 places, over the 8 lower bands b, the
    block total of (a, b) times 1/1024, and then summing every place of every upper band, is summing the whole square. -/
theorem regroup (d : Fin 4096 → Fin 4096 → EReal) (hd : ∀ i j, 0 ≤ d i j) :
    (∑ a : Fin 4, ∑ _u : Fin 8, ∑ _v : Fin 128, ∑ b : Fin 8,
        (∑ p : Fin 1024, ∑ s : Fin 512, d (Cert.PairDist.bandRow a p) (Cert.PairDist.tileRow b s)) * Cert.PairDist.frac)
      = ∑ i : Fin 4096, ∑ j : Fin 4096, d i j := by
  -- every block total is nonnegative
  have hT : ∀ (a : Fin 4) (b : Fin 8),
      0 ≤ ∑ p : Fin 1024, ∑ s : Fin 512, d (Cert.PairDist.bandRow a p) (Cert.PairDist.tileRow b s) :=
    fun a b => Finset.sum_nonneg fun p _ => Finset.sum_nonneg fun s _ => hd _ _
  -- one upper band: the factor moves out of the sum over the lower bands, and the 1024 copies add up
  have step : ∀ a : Fin 4,
      (∑ _u : Fin 8, ∑ _v : Fin 128, ∑ b : Fin 8,
        (∑ p : Fin 1024, ∑ s : Fin 512, d (Cert.PairDist.bandRow a p) (Cert.PairDist.tileRow b s)) * Cert.PairDist.frac)
        = ∑ b : Fin 8, ∑ p : Fin 1024, ∑ s : Fin 512, d (Cert.PairDist.bandRow a p) (Cert.PairDist.tileRow b s) := by
    intro a
    refine Eq.trans ?_ (copies_frac _ (Finset.sum_nonneg fun b _ => hT a b))
    refine Finset.sum_congr rfl fun _ _ => Finset.sum_congr rfl fun _ _ => ?_
    exact (Cert.NonnegSums.sum_mul_of_nonneg _ _ _ fun b _ => hT a b).symm
  rw [Finset.sum_congr rfl fun a _ => step a]
  -- what is left only changes the order of the terms
  rw [← sum_bandRow (fun i => ∑ j : Fin 4096, d i j)]
  refine Finset.sum_congr rfl fun a _ => ?_
  rw [Finset.sum_comm]
  refine Finset.sum_congr rfl fun p _ => ?_
  exact sum_tileRow (fun j => d (Cert.PairDist.bandRow a p) j)

end Cert.Regroup
-- ==== Proof.LibSums3.lean ====
/-
  Finite sums over array indices and three small layout reads, for any extents. A sum over a rank-3 index set is the
  threefold sum over its coordinates, a sum over a rank-1 index set the sum over its one coordinate, and a sum over the
  indices of a `[1, a]` array the sum over its `a` columns. The host's float sum over the FIRST TWO axes of an
  `[a, b, c]` array, read at `j`, is the initial value plus the double sum over the first two coordinates of the entries
  `(p, q, j)` (the library reads a sum over one axis, or a total over every axis; this is the case between them). A
  `[1, 1, a]` array cast to `[a]` reads, at `i`, the entry `(0, 0, i)`, and a `[1, 1]` array cast to a scalar reads its one entry.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibSums3

open Idealize.ShloMosaic Idealize.ShloMosaic.ValueIdx

/-! ## Sums over index sets -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a `[1, a]` array is the sum over its `a` columns. -/
theorem sum_idx_1a {M : Type*} [AddCommMonoid M] {a : Nat} (f : (⟨2, ![1, a]⟩ : Shape).Idx → M) :
    ∑ i, f i = ∑ j : Fin a, f (ix2 (0 : Fin 1) j) := by
  rw [sum_idx2]
  exact Fin.sum_univ_one _

/-- The host's float sum over the first two axes of an `[a, b, c]` array, at `j`: the initial value plus the double sum
    over the first two coordinates of the entries `(p, q, j)`. -/
theorem hostSum_first2of3 {a b c : ℕ} (x : (⟨3, ![a, b, c]⟩ : Shape).Idx → EReal) (init : EReal)
    (h' : (⟨3, ![a, b, c]⟩ : Shape).ReducesTo [0, 1] (⟨1, ![c]⟩ : Shape)) (j : Fin c) :
    Ideal.hostReduceAdd h' x init (ix1 j) = init + ∑ p : Fin a, ∑ q : Fin b, x (ix3 p q j) := by
  unfold Ideal.hostReduceAdd
  refine congrArg (init + ·) ?_
  rw [Finset.sum_filter, sum_idx3]
  refine Finset.sum_congr rfl fun p _ => Finset.sum_congr rfl fun q _ => ?_
  have key : ∀ r : Fin c, (h'.drop (ix3 p q r) = ix1 j) ↔ r = j := fun r => by
    have hv : ∀ r' : Fin c, ((h'.drop (ix3 p q r') 0 : Fin _) : ℕ) = r'.val := fun r' => rfl
    constructor
    · intro e
      have e0 : ((h'.drop (ix3 p q r) 0 : Fin _) : ℕ) = j.val := by rw [e]; rfl
      exact Fin.ext ((hv r).symm.trans e0)
    · rintro rfl
      funext d
      match d with
      | ⟨0, _⟩ => exact Fin.ext (hv r)
  simp only [key, Finset.sum_ite_eq', Finset.mem_univ, if_true]

/-! ## Two casts that drop unit axes -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A `[1, 1]` array cast to a scalar reads its one entry. -/
theorem shapeCast_11_scalar_apply {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) := by
  unfold shapeCast
  refine congrArg x ?_
  exact (eq_ix2 _).trans (congrArg₂ ix2 (Subsingleton.elim _ _) (Subsingleton.elim _ _))

end Cert.LibSums3

end
-- ==== Proof.KernelIdeal.Total.lean ====
/-
  The kernel's result at the ideal values is `PairDist.total` of the argument's rows.

  Tile (a, b) of the grid (point n = 8 a + b) contributes its total T n = the sum over its 1024 x 512 pairs of the
  clamped squared distance; the point adds T n / 1024 to each of the 1024 entries of output tile a, starting from the
  zero tile at b = 0. So after point n every entry of the buffer is the sum of T n' / 1024 over the points n' of the band
  up to n, the result array's entry (a, u, v) is that sum over the whole band, and the host's sum of all 4 x 8 x 128
  entries regroups (every term being nonnegative) to the sum over all 4096 x 4096 pairs.
-/
import proofs.«131192_j77936476553589_2_alg».proof.Proof.KernelIdeal.Tiles
import proofs.«131192_j77936476553589_2_alg».proof.Proof.Payloads
import proofs.«131192_j77936476553589_2_alg».proof.Proof.Regroup
import proofs.«131192_j77936476553589_2_alg».proof.Proof.LibSums3
import Idealize.ShloMosaic.PureOps.Ideal.Laws

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Idealize.SL.Sem
open Cert.PairDist

variable (m : (ℓ : Loc nD τ sig) → Buf (Elt Ideal) ℓ)

/-- The argument matrix as a family of rows. -/
abbrev rowsOf (c : Dev nD) : Fin 8192 → Fin 1024 → EReal := fun r k => m ((c : Thread nD τ).loc main_arg0) (ix2 r k)

/-- The clamped squared distance of upper row i and lower row j. -/
abbrev pairDist (c : Dev nD) (i j : Fin 4096) : EReal := dist (rowsOf m c (lo i)) (rowsOf m c (hi j))

/-- The total of the tile at point n (band n / 8, tile n % 8). -/
def tileSum (c : Dev nD) (n : ℕ) : EReal :=
  ∑ p : Fin 1024, ∑ s : Fin 512,
    pairDist m c (bandRow ⟨n / 8 % 4, Nat.mod_lt _ (by norm_num)⟩ p) (tileRow ⟨n % 8, Nat.mod_lt _ (by norm_num)⟩ s)

/-- The row totals the body computes at point t add up to the tile's total. -/
theorem point_total (c : Dev nD) (t : Fin cfg0.N) :
    (∑ p : Fin 1024, k0_pay3 (F := Ideal) (blk m c 0 t) (blk m c 1 t) (ix2 p 0)) = tileSum m c t.val := by
  have hN := N32
  have ht := t.isLt
  unfold tileSum
  refine Finset.sum_congr rfl fun p _ => ?_
  rw [Cert.Payloads.rowTotals_apply]
  refine Finset.sum_congr rfl fun s _ => ?_
  unfold pairDist
  have e0 : (fun k => (blk m c 0 t : Vec Ideal S1024x1024 .f32) (ix2 p k))
      = rowsOf m c (lo (bandRow ⟨t.val / 8 % 4, Nat.mod_lt _ (by norm_num)⟩ p)) := by
    funext k
    rw [blk0_apply]
    exact congrArg (fun r => m ((c : Thread nD τ).loc main_arg0) (ix2 r k)) (Fin.ext (by
      show 1024 * (t.val / 8) + p.val = 1024 * (t.val / 8 % 4) + p.val
      omega))
  have e1 : (fun k => (blk m c 1 t : Vec Ideal S512x1024 .f32) (ix2 s k))
      = rowsOf m c (hi (tileRow ⟨t.val % 8, Nat.mod_lt _ (by norm_num)⟩ s)) := by
    funext k
    rw [blk1_apply]
    exact congrArg (fun r => m ((c : Thread nD τ).loc main_arg0) (ix2 r k)) (Fin.ext rfl)
  exact congrArg₂ dist e0 e1

/-- After point n every entry of the output tile's buffer is the sum of the shares of the band's tiles up to n. -/
theorem acc_closed (c : Dev nD) : ∀ (n : ℕ) (h : n < cfg0.N) (i : S1x8x128.Idx),
    accN m c n i = ∑ u ∈ Finset.range (n % 8 + 1), tileSum m c (n - n % 8 + u) * frac
  | 0, h, i => by
    rw [accN_first m c ⟨0, h⟩ rfl, Cert.Payloads.fill_apply, Cert.Payloads.zeros_apply, point_total, zero_add]
    simp
  | n + 1, h, i => by
    by_cases h0 : (n + 1) % 8 = 0
    · rw [accN_first m c ⟨n + 1, h⟩ h0, Cert.Payloads.fill_apply, Cert.Payloads.zeros_apply, point_total, zero_add, h0]
      simp
    · have e1 : n % 8 + 1 = (n + 1) % 8 := by omega
      have e2 : n - n % 8 = n + 1 - (n + 1) % 8 := by omega
      have e3 : n + 1 - (n + 1) % 8 + (n + 1) % 8 = n + 1 := by omega
      rw [accN_next m c ⟨n + 1, h⟩ h0, Cert.Payloads.fill_apply, point_total]
      show accN m c (n + 1 - 1) i + tileSum m c (n + 1) * frac = _
      rw [Nat.add_sub_cancel, acc_closed c n (Nat.lt_of_succ_lt h) i, Finset.sum_range_succ _ ((n + 1) % 8), e3, ← e2, ← e1]

/-- So entry (a, u, v) of the result array is the sum of the shares of band a's eight tiles. -/
theorem resultArr_apply (c : Dev nD) (a : Fin 4) (u : Fin 8) (v : Fin 128) :
    resultArr m c (ix3 a u v) = ∑ b : Fin 8, tileSum m c (8 * a.val + b.val) * frac := by
  have hN := N32
  have ha := a.isLt
  unfold resultArr
  show accN m c (8 * a.val + 7) (ix3 (0 : Fin 1) u v) = _
  rw [acc_closed m c (8 * a.val + 7) (by omega), show (8 * a.val + 7) % 8 + 1 = 8 from by omega,
    show 8 * a.val + 7 - (8 * a.val + 7) % 8 = 8 * a.val from by omega, Finset.sum_range]

/-- The tile total at point 8 a + b, over band a and tile b. -/
theorem tileSum_apply (c : Dev nD) (a : Fin 4) (b : Fin 8) :
    tileSum m c (8 * a.val + b.val) = ∑ p : Fin 1024, ∑ s : Fin 512, pairDist m c (bandRow a p) (tileRow b s) := by
  have ha := a.isLt
  have hb := b.isLt
  unfold tileSum
  have ea : (⟨(8 * a.val + b.val) / 8 % 4, Nat.mod_lt _ (by norm_num)⟩ : Fin 4) = a := Fin.ext (by show (8 * a.val + b.val) / 8 % 4 = a.val; omega)
  have eb : (⟨(8 * a.val + b.val) % 8, Nat.mod_lt _ (by norm_num)⟩ : Fin 8) = b := Fin.ext (by show (8 * a.val + b.val) % 8 = b.val; omega)
  rw [ea, eb]

/-- THE KERNEL'S RESULT: the host's sum of every entry of the result array is the sum over all pairs. -/
theorem kernel_total (c : Dev nD) :
    Vend m c (Proc.devRef .tc main_v1) = fun _ => total (rowsOf m c) := by
  rw [Vend_v1, final_2]
  funext i
  simp only [Host.reduceAdd, Ideal.hostReduceAdd_def]
  rw [Ideal.hostReduceAdd_total reducesTo_S4x8x128_S_d0_1_2 (fun b => b.elim0) (resultArr m c) _ i]
  show Ideal.ofBits .f32 0x00000000#32 + _ = _
  rw [Ideal.ofBits_zero_f32, zero_add, Cert.LibSums3.sum_idx3]
  simp only [resultArr_apply, tileSum_apply]
  exact Cert.Regroup.regroup (pairDist m c) (fun _ _ => dist_nonneg _ _)

end Cert.KernelIdeal.Tile

end
-- ==== Proof.RefTotal.lean ====
/-
  The reference's result is `PairDist.total` of its argument's rows.

  Each stage of the reference is read at explicit coordinates and identified with the matching piece of the
  specification: the row sums of squares, the floored norm, the scaled rows, the two halves (rows `lo i` and
  `hi j`), their squared lengths and inner products, the clamped expanded squared distance, its absolute value
  (the value itself, as it is never negative), and the sum over every pair.
-/
import proofs.«131192_j77936476553589_2_alg».proof.Proof.Gen.ReferenceIdeal.Read
import proofs.«131192_j77936476553589_2_alg».proof.Proof.PairDist
import Idealize.ShloMosaic.Lib.ValueIdx

noncomputable section

open scoped BigOperators

namespace Cert.RefTotal

open Idealize.ShloMosaic Idealize.ShloMosaic.ValueIdx Cert.ReferenceIdeal Cert.ReferenceIdeal.Read

/-- The argument as a family of rows. -/
abbrev rows (x0 : (⟨S8192x1024, .f32⟩ : BufTy).Contents (Elt Ideal)) : Fin 8192 → Fin 1024 → EReal :=
  fun r k => x0 (ix2 r k)

/-! ### The index maps of the layout operations, at coordinates -/

theorem idx_v1 (r : Fin 8192) (k : Fin 1024) : idx_main_v1 (ix1 r) k = ix2 r k :=
  funext fun a => Fin.ext (by match a with | ⟨0, _⟩ => rfl | ⟨1, _⟩ => rfl)

theorem idx_v2 (r : Fin 8192) (c : Fin 1) : idx_main_v2 (ix2 r c) = ix1 r :=
  funext fun a => Fin.ext (by match a with | ⟨0, _⟩ => rfl)

theorem idx_v6 (r : Fin 8192) (k : Fin 1024) : idx_main_v6 (ix2 r k) = ix2 r (0 : Fin 1) :=
  funext fun a => Fin.ext (by match a with | ⟨0, _⟩ => rfl | ⟨1, _⟩ => rfl)

theorem idx_v8 (i : Fin 4096) (k : Fin 1024) : idx_main_v8 (ix2 i k) = ix2 (PairDist.lo i) k :=
  funext fun a => Fin.ext (by match a with | ⟨0, _⟩ => rfl | ⟨1, _⟩ => rfl)

theorem idx_v9 (j : Fin 4096) (k : Fin 1024) : idx_main_v9 (ix2 j k) = ix2 (PairDist.hi j) k :=
  funext fun a => Fin.ext (by match a with | ⟨0, _⟩ => rfl | ⟨1, _⟩ => rfl)

theorem idx_v11 (i : Fin 4096) (k : Fin 1024) : idx_main_v11 (ix1 i) k = ix2 i k :=
  funext fun a => Fin.ext (by match a with | ⟨0, _⟩ => rfl | ⟨1, _⟩ => rfl)

theorem idx_v13 (j : Fin 4096) (k : Fin 1024) : idx_main_v13 (ix1 j) k = ix2 j k :=
  funext fun a => Fin.ext (by match a with | ⟨0, _⟩ => rfl | ⟨1, _⟩ => rfl)

theorem lidx_v14 (i j : Fin 4096) (k : Fin 1024) : lidx_main_v14 (ix2 i j) k = ix2 i k :=
  funext fun a => Fin.ext (by match a with | ⟨0, _⟩ => rfl | ⟨1, _⟩ => rfl)

theorem ridx_v14 (i j : Fin 4096) (k : Fin 1024) : ridx_main_v14 (ix2 i j) k = ix2 j k :=
  funext fun a => Fin.ext (by match a with | ⟨0, _⟩ => rfl | ⟨1, _⟩ => rfl)

theorem idx_v15 (i : Fin 4096) (c : Fin 1) : idx_main_v15 (ix2 i c) = ix1 i :=
  funext fun a => Fin.ext (by match a with | ⟨0, _⟩ => rfl)

theorem idx_v16 (c : Fin 1) (j : Fin 4096) : idx_main_v16 (ix2 c j) = ix1 j :=
  funext fun a => Fin.ext (by match a with | ⟨0, _⟩ => rfl)

theorem idx_v17 (i j : Fin 4096) : idx_main_v17 (ix2 i j) = ix2 i (0 : Fin 1) :=
  funext fun a => Fin.ext (by match a with | ⟨0, _⟩ => rfl | ⟨1, _⟩ => rfl)

theorem idx_v18 (i j : Fin 4096) : idx_main_v18 (ix2 i j) = ix2 (0 : Fin 1) j :=
  funext fun a => Fin.ext (by match a with | ⟨0, _⟩ => rfl | ⟨1, _⟩ => rfl)

/-! ### The stages, at coordinates -/

variable (x0 : (⟨S8192x1024, .f32⟩ : BufTy).Contents (Elt Ideal))

/-- A row's sum of squares. -/
theorem v1_at (r : Fin 8192) : val_main_v1 (F := Ideal) x0 (ix1 r) = PairDist.ssq (rows x0 r) := by
  rw [val_main_v1_apply, val_main_cst_apply]
  simp only [val_main_v0_apply, idx_v1, Ideal.ofBits_def, Ideal.ofBits_zero_f32, zero_add, Ideal.mulf_def]
  rfl

/-- The floored norm of a row, kept as a one-entry column. -/
theorem v5_at (r : Fin 8192) (c : Fin 1) : val_main_v5 (F := Ideal) x0 (ix2 r c) = PairDist.scale (rows x0 r) := by
  rw [val_main_v5_apply, val_main_v3_apply, val_main_v2_apply, val_main_v4_apply, val_main_cst_0_apply, idx_v2, v1_at]
  simp only [Ideal.maximumf_def, Ideal.hostUnary_sqrt_def, Ideal.ofBits_def]
  rfl

/-- The scaled matrix. -/
theorem v7_at (r : Fin 8192) (k : Fin 1024) : val_main_v7 (F := Ideal) x0 (ix2 r k) = PairDist.unit (rows x0 r) k := by
  rw [val_main_v7_apply, val_main_v6_apply, idx_v6, v5_at]
  simp only [Ideal.hostDivf_def]
  rfl

/-- Its upper half is the scaled rows `lo i`; -/
theorem v8_at (i : Fin 4096) (k : Fin 1024) :
    val_main_v8 (F := Ideal) x0 (ix2 i k) = PairDist.unit (rows x0 (PairDist.lo i)) k := by
  rw [val_main_v8_apply, idx_v8, v7_at]

/-- its lower half the scaled rows `hi j`. -/
theorem v9_at (j : Fin 4096) (k : Fin 1024) :
    val_main_v9 (F := Ideal) x0 (ix2 j k) = PairDist.unit (rows x0 (PairDist.hi j)) k := by
  rw [val_main_v9_apply, idx_v9, v7_at]

/-- The squared length of a scaled upper row; -/
theorem v11_at (i : Fin 4096) : val_main_v11 (F := Ideal) x0 (ix1 i) = PairDist.sq (rows x0 (PairDist.lo i)) := by
  rw [val_main_v11_apply, val_main_cst_1_apply]
  simp only [val_main_v10_apply, idx_v11, v8_at, Ideal.ofBits_def, Ideal.ofBits_zero_f32, zero_add, Ideal.mulf_def]
  rfl

/-- of a scaled lower row. -/
theorem v13_at (j : Fin 4096) : val_main_v13 (F := Ideal) x0 (ix1 j) = PairDist.sq (rows x0 (PairDist.hi j)) := by
  rw [val_main_v13_apply, val_main_cst_2_apply]
  simp only [val_main_v12_apply, idx_v13, v9_at, Ideal.ofBits_def, Ideal.ofBits_zero_f32, zero_add, Ideal.mulf_def]
  rfl

/-- The inner product of a scaled upper row and a scaled lower row. -/
theorem v14_at (i j : Fin 4096) :
    val_main_v14 (F := Ideal) x0 (ix2 i j) = PairDist.dot (rows x0 (PairDist.lo i)) (rows x0 (PairDist.hi j)) := by
  rw [val_main_v14_apply]
  simp only [lidx_v14, ridx_v14, v8_at, v9_at]
  rfl

/-- The clamped expanded squared distance of the pair. -/
theorem v24_at (i j : Fin 4096) :
    val_main_v24 (F := Ideal) x0 (ix2 i j) = PairDist.dist (rows x0 (PairDist.lo i)) (rows x0 (PairDist.hi j)) := by
  rw [val_main_v24_apply, val_main_v22_apply, val_main_v19_apply, val_main_v21_apply, val_main_v17_apply, val_main_v18_apply,
    val_main_v15_apply, val_main_v16_apply, val_main_v20_apply, val_main_v23_apply, val_main_cst_3_apply, val_main_cst_4_apply,
    idx_v17, idx_v18, idx_v15, idx_v16, v11_at, v13_at, v14_at]
  simp only [Ideal.maximumf_def, Ideal.subf_def, Ideal.addf_def, Ideal.mulf_def, Ideal.ofBits_def, Ideal.ofBits_zero_f32]
  rfl

/-- The absolute value of a value that is not negative is the value. -/
theorem abs_of_nonneg' {a : EReal} (h : 0 ≤ a) : max a (-a) = a :=
  max_eq_left ((EReal.neg_le_zero.mpr h).trans h)

/-- So the absolute value changes nothing. -/
theorem v25_at (i j : Fin 4096) :
    val_main_v25 (F := Ideal) x0 (ix2 i j) = PairDist.dist (rows x0 (PairDist.lo i)) (rows x0 (PairDist.hi j)) := by
  rw [val_main_v25_apply, v24_at, Ideal.hostAbsf_def, Ideal.absf_def]
  exact abs_of_nonneg' (PairDist.dist_nonneg _ _)

/-- The reference's result: the sum over every pair. -/
theorem ref_total (x0 : (⟨S8192x1024, .f32⟩ : BufTy).Contents (Elt Ideal)) :
    val_main_v26 (F := Ideal) x0 = fun _ => Cert.PairDist.total (fun r k => x0 (ix2 r k)) := by
  funext i
  rw [val_main_v26_apply, val_main_cst_5_apply, sum_idx2]
  simp only [v25_at, Ideal.ofBits_def, Ideal.ofBits_zero_f32, zero_add]
  rfl

end Cert.RefTotal

end
-- ==== Proof.lean ====
/-
  The total pairwise confusion of an 8192 x 1024 matrix: every row is divided by its Euclidean norm (floored at a small
  constant); the squared distance between a scaled row of the upper half and a scaled row of the lower half is taken in
  the expanded form |u|^2 + |v|^2 - 2 <u, v> and clamped below at zero; the result is the sum over all 4096 x 4096
  pairs (`PairDist.total`).

  The reference computes exactly that, operation by operation (`RefTotal.ref_total`; its final absolute value acts on a
  value that is never negative). The kernel walks a 4 x 8 grid of tiles — band a of 1024 upper rows against tile b of 512
  lower rows —, and at each tile adds the tile's total times 1/1024 to each of the 1024 entries of the band's output
  tile, which it zeroes at the band's first tile; the host then sums all 4 x 8 x 128 entries. Over the extended reals
  1024 copies of T / 1024 add up to T for every nonnegative T, and a sum of nonnegative terms may be regrouped freely,
  so the kernel's result is the same sum (`Tile.kernel_total`, over `Regroup.regroup`). No finiteness is needed: the
  precondition is never opened.

  Both kernel programs run to the end, fault nowhere and leave the argument unchanged (`Tile.frame`): the run is the
  kernel region — whose two input windows read the one argument array, each at half of its share — followed by the two
  host operations. The idealization rewrote nothing, so `preserves` is trivial.
-/
import proofs.«131192_j77936476553589_2_alg».proof.Defs
import proofs.«131192_j77936476553589_2_alg».proof.Proof.Gen.Kernel
import proofs.«131192_j77936476553589_2_alg».proof.Proof.Gen.KernelIdeal
import proofs.«131192_j77936476553589_2_alg».proof.Proof.Gen.ReferenceIdeal
import proofs.«131192_j77936476553589_2_alg».proof.Proof.Gen.Pre_finite_inputs
import proofs.«131192_j77936476553589_2_alg».proof.Proof.Kernel.Run
import proofs.«131192_j77936476553589_2_alg».proof.Proof.KernelIdeal.Total
import proofs.«131192_j77936476553589_2_alg».proof.Proof.RefTotal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Tile.frame m ρ

theorem frame_ki : Cert.frame_KernelIdeal := fun m ρ _ => Cert.KernelIdeal.Tile.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `PairDist.total` of the rows of arguments that agree. -/
theorem algebraic : Cert.algebraic_KernelIdeal_ReferenceIdeal := by
  intro m ρ m' ρ' _ hagree
  refine ⟨fun c => (fun _ => Cert.PairDist.total (Cert.KernelIdeal.Tile.rowsOf m c)), ?_, ?_⟩
  · exact (θ_run Cert.KernelIdeal.defs _ _).mono
      (fun _ h c => ⟨((h c).1).trans (Cert.KernelIdeal.Tile.kernel_total m c), ((h c).2).trans (Cert.KernelIdeal.Tile.Vend_arg0 m c)⟩)
      (Cert.KernelIdeal.Tile.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v26_eq, Cert.RefTotal.ref_total, hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
